-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S32768 : Shape := ⟨1, ![32768]⟩
abbrev S1536x768 : Shape := ⟨2, ![1536, 768]⟩
abbrev S1536 : Shape := ⟨1, ![1536]⟩
abbrev S768x1536 : Shape := ⟨2, ![768, 1536]⟩
abbrev S768 : Shape := ⟨1, ![768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S1536x768 : S_.BroadcastsInDim S1536x768 (![] : Fin 0 → Fin S1536x768.rank)
  reducesTo_S1536x768_S_d0_1 : S1536x768.ReducesTo [0, 1] S_
  bcast_S_S1536 : S_.BroadcastsInDim S1536 (![] : Fin 0 → Fin S1536.rank)
  reducesTo_S1536_S_d0 : S1536.ReducesTo [0] S_
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg1 : IVec S32768 32) (main_arg5 : FVec F S768 .f32) (main_v13 : IVec S_ 1) (main_v16 : IVec S768x1536 1) : IVec S_ 1 :=
  let main_c_5 : IVec S_ 1 := constantI S_ 1 1#1
  let main_v17 : IVec S_ 1 := (fun x v => Host.reduce IntOp.andi x v reducesTo_S768x1536_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_c_8 : IVec S_ 32 := constantI S_ 32 0#32
  let main_v24 : IVec S32768 32 := broadcastInDim S32768 ![] bcast_S_S32768 main_c_8
  let main_v25 : IVec S32768 1 := cmpi .sge main_arg1 main_v24
  let main_c_9 : IVec S_ 32 := constantI S_ 32 8#32
  let main_v26 : IVec S32768 32 := broadcastInDim S32768 ![] bcast_S_S32768 main_c_9
  let main_v27 : IVec S32768 1 := cmpi .slt main_arg1 main_v26
  let main_v28 : IVec S32768 1 := andi main_v25 main_v27
  let main_c_10 : IVec S_ 1 := constantI S_ 1 1#1
  let main_v29 : IVec S_ 1 := (fun x v => Host.reduce IntOp.andi x v reducesTo_S32768_S_d0 h_S_) main_v28 main_c_10
  let main_v30 : IVec S_ 1 := andi main_v23 main_v29
  main_v30

def fn {F : FTy → Type} [FloatOps F] (main_arg0 : FVec F S32768x768 .f32) (main_arg1 : IVec S32768 32) (main_arg2 : FVec F S1536x768 .f32) (main_arg3 : FVec F S1536 .f32) (main_arg4 : FVec F S768x1536 .f32) (main_arg5 : FVec F S768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S1536x768 .f32 := Host.absf main_arg2
  let main_cst_0 : FVec F S_ .f32 := constant S_ .f32 0x7F800000#32
  let main_v5 : FVec F S1536x768 .f32 := broadcastInDim S1536x768 ![] bcast_S_S1536x768 main_cst_0
  let main_v6 : IVec S1536x768 1 := cmpf .olt main_v4 main_v5
  let main_c_1 : IVec S_ 1 := constantI S_ 1 1#1
  let main_v7 : IVec S_ 1 := (fun x v => Host.reduce IntOp.andi x v reducesTo_S1536x768_S_d0_1 h_S_) main_v6 main_c_1
  let main_v8 : IVec S_ 1 := andi main_v3 main_v7
  let main_v9 : FVec F S1536 .f32 := Host.absf main_arg3
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S768x1536 .f32 := Host.absf main_arg4
  let main_cst_4 : FVec F S_ .f32 := constant S_ .f32 0x7F800000#32
  let main_v15 : FVec F S768x1536 .f32 := broadcastInDim S768x1536 ![] bcast_S_S768x1536 main_cst_4
  let main_v16 : IVec S768x1536 1 := cmpf .olt main_v14 main_v15
  fn_part1 (F := F) main_arg1 main_arg5 main_v13 main_v16
-- ==== Kernel.lean ====
abbrev S32768x768 : Shape := ⟨2, ![32768, 768]⟩
abbrev S32768 : Shape := ⟨1, ![32768]⟩
abbrev S1536x768 : Shape := ⟨2, ![1536, 768]⟩
abbrev S1536 : Shape := ⟨1, ![1536]⟩
abbrev S768x1536 : Shape := ⟨2, ![768, 1536]⟩
abbrev S768 : Shape := ⟨1, ![768]⟩
abbrev S1x32768 : Shape := ⟨2, ![1, 32768]⟩
abbrev S1x1536 : Shape := ⟨2, ![1, 1536]⟩
abbrev S1x768 : Shape := ⟨2, ![1, 768]⟩
abbrev S1x1024 : Shape := ⟨2, ![1, 1024]⟩
abbrev S1024x768 : Shape := ⟨2, ![1024, 768]⟩
abbrev S1024x1536 : Shape := ⟨2, ![1024, 1536]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S32768x768, .f32⟩
  | .hbm, ⟨1, _⟩ => ⟨S32768, .i32⟩
  | .hbm, ⟨2, _⟩ => ⟨S1536x768, .f32⟩
  | .hbm, ⟨3, _⟩ => ⟨S1536, .f32⟩
  | .hbm, ⟨4, _⟩ => ⟨S768x1536, .f32⟩
  | .hbm, ⟨5, _⟩ => ⟨S768, .f32⟩
  | .hbm, ⟨6, _⟩ => ⟨S1x32768, .i32⟩
  | .hbm, ⟨7, _⟩ => ⟨S1x1536, .f32⟩
  | .hbm, ⟨8, _⟩ => ⟨S1x768, .f32⟩
  | .hbm, ⟨9, _⟩ => ⟨S32768x768, .f32⟩
  | .local _ .vmem, ⟨0, _⟩ => ⟨S1x1024, .i32⟩
  | .local _ .vmem, ⟨1, _⟩ => ⟨S1x1024, .i32⟩
  | .local _ .vmem, ⟨2, _⟩ => ⟨S1024x768, .f32⟩
  | .local _ .vmem, ⟨3, _⟩ => ⟨S1024x768, .f32⟩
  | .local _ .vmem, ⟨4, _⟩ => ⟨S1536x768, .f32⟩
  | .local _ .vmem, ⟨5, _⟩ => ⟨S1x1536, .f32⟩
  | .local _ .vmem, ⟨6, _⟩ => ⟨S768x1536, .f32⟩
  | .local _ .vmem, ⟨7, _⟩ => ⟨S1x768, .f32⟩
  | .local _ .vmem, ⟨8, _⟩ => ⟨S1024x768, .f32⟩
  | .local _ .vmem, ⟨9, _⟩ => ⟨S1024x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32768_S1x32768 : S32768.ShapeCasts S1x32768
  shapeCasts_S1536_S1x1536 : S1536.ShapeCasts S1x1536
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  inb_S1536x768_S1536x768_0_0 : ∀ a, (![0, 0] : Fin 2 → Nat) a + S1536x768.size a ≤ S1536x768.size a
  h_S1536x768 : 0 < S1536x768.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  iota_S1024x1536_d1_w32 : S1024x1536.Iotas .tc 32 [1]
  broadcasts_S1024x1_S1024x1536 : S1024x1.Broadcasts S1024x1536
  inb_S768x1536_S768x1536_0_0 : ∀ a, (![0, 0] : Fin 2 → Nat) a + S768x1536.size a ≤ S768x1536.size a
  h_S768x1536 : 0 < S768x1536.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  dot_S1024x768_S1536x768_S1024x1536_1_1_0_0_n_n_wf : DotDims.WF S1024x768 S1536x768 S1024x1536 [1] [1] [0] [0] [] []
  dot_S1024x1536_S768x1536_S1024x768_1_1_0_0_n_n_wf : DotDims.WF S1024x1536 S768x1536 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x32768.size a
  hwx0_0 : ∀ i : grid0.Coords, EltTy.bits .i32 = 32 ∨ (Rect.block (s := S1x32768) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S32768x768.size a
  hwx0_1 : ∀ i : grid0.Coords, EltTy.bits .f32 = 32 ∨ (Rect.block (s := S32768x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x768.size a ≤ S1536x768.size a
  hwx0_2 : ∀ i : grid0.Coords, EltTy.bits .f32 = 32 ∨ (Rect.block (s := S1536x768) S1536x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x1536.size a ≤ S768x1536.size a
  hwx0_4 : ∀ i : grid0.Coords, EltTy.bits .f32 = 32 ∨ (Rect.block (s := S768x1536) S768x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x768.size a ≤ S32768x768.size a
  hwx0_6 : ∀ i : grid0.Coords, EltTy.bits .f32 = 32 ∨ (Rect.block (s := S32768x768) S1024x768.size (cc0_transform_6 i) (hinb0_6 i)).WholeWords (EltTy.packing .f32)

variable [Facts₀]

def dot_S1024x768_S1536x768_S1024x1536_1_1_0_0_n_n : DotDims S1024x768 S1536x768 S1024x1536 where
  lhsContracting := [1]
  rhsContracting := [1]
  lhsNonContracting := [0]
  rhsNonContracting := [0]
  lhsBatch := []
  rhsBatch := []
  wf := dot_S1024x768_S1536x768_S1024x1536_1_1_0_0_n_n_wf
def dot_S1024x1536_S768x1536_S1024x768_1_1_0_0_n_n : DotDims S1024x1536 S768x1536 S1024x768 where
  lhsContracting := [1]
  rhsContracting := [1]
  lhsNonContracting := [0]
  rhsNonContracting := [0]
  lhsBatch := []
  rhsBatch := []
  wf := dot_S1024x1536_S768x1536_S1024x768_1_1_0_0_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1536x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x768 : Shape := ⟨2, ![32768, 768]⟩
abbrev S32768 : Shape := ⟨1, ![32768]⟩
abbrev S1536x768 : Shape := ⟨2, ![1536, 768]⟩
abbrev S1536 : Shape := ⟨1, ![1536]⟩
abbrev S768x1536 : Shape := ⟨2, ![768, 1536]⟩
abbrev S768 : Shape := ⟨1, ![768]⟩
abbrev S8 : Shape := ⟨1, ![8]⟩
abbrev S32768x1536 : Shape := ⟨2, ![32768, 1536]⟩
abbrev S1x1536 : Shape := ⟨2, ![1, 1536]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S1x768 : Shape := ⟨2, ![1, 768]⟩

abbrev nBuf : Space → Nat
  | .hbm => 57
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S32768, .i32⟩
  | .hbm, ⟨2, _⟩ => ⟨S1536x768, .f32⟩
  | .hbm, ⟨3, _⟩ => ⟨S1536, .f32⟩
  | .hbm, ⟨4, _⟩ => ⟨S768x1536, .f32⟩
  | .hbm, ⟨5, _⟩ => ⟨S768, .f32⟩
  | .hbm, ⟨6, _⟩ => ⟨S8, .i32⟩
  | .hbm, ⟨7, _⟩ => ⟨S768x1536, .f32⟩
  | .hbm, ⟨8, _⟩ => ⟨S32768x1536, .f32⟩
  | .hbm, ⟨9, _⟩ => ⟨S1x1536, .f32⟩
  | .hbm, ⟨10, _⟩ => ⟨S32768x1536, .f32⟩
  | .hbm, ⟨11, _⟩ => ⟨S32768x1536, .f32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S1, .i32⟩
  | .hbm, ⟨21, _⟩ => ⟨S_, .i32⟩
  | .hbm, ⟨22, _⟩ => ⟨S32768x1, .i32⟩
  | .hbm, ⟨23, _⟩ => ⟨S32768x1, .i1⟩
  | .hbm, ⟨24, _⟩ => ⟨S1x1, .i32⟩
  | .hbm, ⟨25, _⟩ => ⟨S32768x1, .i32⟩
  | .hbm, ⟨26, _⟩ => ⟨S32768x1, .i1⟩
  | .hbm, ⟨27, _⟩ => ⟨S32768x1, .i1⟩
  | .hbm, ⟨28, _⟩ => ⟨S_, .i1⟩
  | .hbm, ⟨29, _⟩ => ⟨S32768, .i1⟩
  | .hbm, ⟨30, _⟩ => ⟨S32768, .i32⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S1536, .i32⟩
  | .hbm, ⟨35, _⟩ => ⟨S1x1536, .i32⟩
  | .hbm, ⟨36, _⟩ => ⟨S32768x1, .i32⟩
  | .hbm, ⟨37, _⟩ => ⟨S32768x1536, .i32⟩
  | .hbm, ⟨38, _⟩ => ⟨S32768x1536, .i32⟩
  | .hbm, ⟨39, _⟩ => ⟨S32768x1536, .i1⟩
  | .hbm, ⟨40, _⟩ => ⟨S32768x1536, .f32⟩
  | .hbm, ⟨41, _⟩ => ⟨S32768x1536, .f32⟩
  | .hbm, ⟨42, _⟩ => ⟨S32768x1536, .f32⟩
  | .hbm, ⟨43, _⟩ => ⟨S_, .f32⟩
  | .hbm, ⟨44, _⟩ => ⟨S32768x1536, .f32⟩
  | .hbm, ⟨45, _⟩ => ⟨S32768x1536, .f32⟩
  | .hbm, ⟨46, _⟩ => ⟨S_, .f32⟩
  | .hbm, ⟨47, _⟩ => ⟨S32768x1536, .f32⟩
  | .hbm, ⟨48, _⟩ => ⟨S32768x1536, .f32⟩
  | .hbm, ⟨49, _⟩ => ⟨S32768x1536, .f32⟩
  | .hbm, ⟨50, _⟩ => ⟨S32768x1536, .f32⟩
  | .hbm, ⟨51, _⟩ => ⟨S32768x1536, .f32⟩
  | .hbm, ⟨52, _⟩ => ⟨S1536x768, .f32⟩
  | .hbm, ⟨53, _⟩ => ⟨S32768x768, .f32⟩
  | .hbm, ⟨54, _⟩ => ⟨S1x768, .f32⟩
  | .hbm, ⟨55, _⟩ => ⟨S32768x768, .f32⟩
  | .hbm, ⟨56, _⟩ => ⟨S32768x768, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_c_4 : Ref sig .tc := ⟨.hbm, 31, rfl⟩
abbrev main_call0_v14 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩

abbrev nD : Nat := 1
abbrev τ : Topo := Topo.v7x

variable {F : FTy → Type} [FloatOps F]

class Facts₀ : Prop where
  transposes_S1536x768_S768x1536_1_0 : S1536x768.Transposes [1, 0] S768x1536
  bcast_S1536_S1x1536_1 : S1536.BroadcastsInDim S1x1536 (![1] : Fin 1 → Fin S1x1536.rank)
  bcast_S1x1536_S32768x1536_0_1 : S1x1536.BroadcastsInDim S32768x1536 (![0, 1] : Fin 2 → Fin S32768x1536.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768x1_S32768x1536_0_1 : S32768x1.BroadcastsInDim S32768x1536 (![0, 1] : Fin 2 → Fin S32768x1536.rank)
  bcast_S_S32768x1536 : S_.BroadcastsInDim S32768x1536 (![] : Fin 0 → Fin S32768x1536.rank)
  transposes_S768x1536_S1536x768_1_0 : S768x1536.Transposes [1, 0] S1536x768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  dot_S32768x768_S768x1536_S32768x1536_1_0_0_1_n_n_wf : DotDims.WF S32768x768 S768x1536 S32768x1536 [1] [0] [0] [1] [] []
  gather_S8_S32768x1_S32768_n_0_n_n_0_1_1_wf : GatherDims.WF S8 S32768x1 S32768 [] [0] [] [0] [] 1 ![1]
  dot_S32768x1536_S1536x768_S32768x768_1_0_0_1_n_n_wf : DotDims.WF S32768x1536 S1536x768 S32768x768 [1] [0] [0] [1] [] []

variable [Facts₀]

def dot_S32768x768_S768x1536_S32768x1536_1_0_0_1_n_n : DotDims S32768x768 S768x1536 S32768x1536 where
  lhsContracting := [1]
  rhsContracting := [0]
  lhsNonContracting := [0]
  rhsNonContracting := [1]
  lhsBatch := []
  rhsBatch := []
  wf := dot_S32768x768_S768x1536_S32768x1536_1_0_0_1_n_n_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def dot_S32768x1536_S1536x768_S32768x768_1_0_0_1_n_n : DotDims S32768x1536 S1536x768 S32768x768 where
  lhsContracting := [1]
  rhsContracting := [0]
  lhsNonContracting := [0]
  rhsNonContracting := [1]
  lhsBatch := []
  rhsBatch := []
  wf := dot_S32768x1536_S1536x768_S32768x768_1_0_0_1_n_n_wf

class Facts : Prop extends Facts₀ where

variable [Facts]
-- ==== Proof.Spec.lean ====
/-
  The function both programs compute, on the extended reals.

  A token n (one of 32768 rows) has features x(n, ·) ∈ ℝ̄^768 and an expert word e(n). The hidden pre-activation of
  unit k (one of 1536) is the affine form  z(n, k) = Σ_i x(n, i) · W1(k, i) + b1(k).  The unit's activation is the
  self-gated  g(z) = z · z · σ(z),  σ(z) = 1 / (1 + e^(−z)).  Token n keeps only its first  w(e(n)) = (e(n) + 1) · 192
  hidden units (a nested slice: expert e uses the first (e + 1)/8 of the 1536 units); the others contribute 0. The output is
  out(n, j) = Σ_k h(n, k) · W2(j, k) + b2(j),  h(n, k) = g(z(n, k)) if k < w(e(n)), else 0.

  The width is computed on 32-bit words and the test k < w is the signed comparison of words: that is how both programs
  compute it, and on expert words 0 … 7 it is the comparison of the numbers k and 192 · (e + 1).

  Nothing here mentions a program.
-/
import Idealize.ShloMosaic.PureOps.Ideal
import Idealize.ShloMosaic.Lib.ValueIdx

open scoped BigOperators

noncomputable section

namespace Cert.Spec

open Idealize.ShloMosaic Idealize.ShloMosaic.ValueIdx

/-- Tokens × features. -/
abbrev SX : Shape := ⟨2, ![32768, 768]⟩
/-- One expert word per token. -/
abbrev SE : Shape := ⟨1, ![32768]⟩
/-- Hidden units × features. -/
abbrev SW1 : Shape := ⟨2, ![1536, 768]⟩
abbrev SB1 : Shape := ⟨1, ![1536]⟩
/-- Features × hidden units. -/
abbrev SW2 : Shape := ⟨2, ![768, 1536]⟩
abbrev SB2 : Shape := ⟨1, ![768]⟩

/-- The hidden pre-activation z(n, k) = Σ_i x(n, i) · W1(k, i) + b1(k). -/
def pre (x : SX.Idx → EReal) (W1 : SW1.Idx → EReal) (b1 : SB1.Idx → EReal) (n : Fin 32768) (k : Fin 1536) : EReal :=
  (∑ i : Fin 768, x (ix2 n i) * W1 (ix2 k i)) + b1 (ix1 k)

/-- The self-gated activation g(z) = z · z · σ(z). -/
def gate (z : EReal) : EReal := z * z * Ideal.logistic z

/-- The number of hidden units expert word e keeps, as a word: (e + 1) · 192. -/
def width (e : BitVec 32) : BitVec 32 := (e + 1#32) * 192#32

/-- Whether hidden unit k is kept under expert word e: the signed test k < width e on words, as a bit. -/
def keeps (e : BitVec 32) (k : Fin 1536) : BitVec 1 := IntOp.cmpi .slt (BitVec.ofNat 32 k.val) (width e)

/-- The hidden activation h(n, k): g(z(n, k)) on a kept unit, 0 on the others. -/
def hid (x : SX.Idx → EReal) (e : SE.Idx → BitVec 32) (W1 : SW1.Idx → EReal) (b1 : SB1.Idx → EReal)
    (n : Fin 32768) (k : Fin 1536) : EReal :=
  Scalar.select (keeps (e (ix1 n)) k) (gate (pre x W1 b1 n k)) 0

/-- The output out(n, j) = Σ_k h(n, k) · W2(j, k) + b2(j). -/
def out (x : SX.Idx → EReal) (e : SE.Idx → BitVec 32) (W1 : SW1.Idx → EReal) (b1 : SB1.Idx → EReal)
    (W2 : SW2.Idx → EReal) (b2 : SB2.Idx → EReal) : SX.Idx → EReal :=
  fun i => (∑ k : Fin 1536, hid x e W1 b1 (i 0) k * W2 (ix2 (i 1) k)) + b2 (ix1 (i 1))

theorem out_apply (x : SX.Idx → EReal) (e : SE.Idx → BitVec 32) (W1 : SW1.Idx → EReal) (b1 : SB1.Idx → EReal)
    (W2 : SW2.Idx → EReal) (b2 : SB2.Idx → EReal) (n : Fin 32768) (j : Fin 768) :
    out x e W1 b1 W2 b2 (ix2 n j) = (∑ k : Fin 1536, hid x e W1 b1 n k * W2 (ix2 j k)) + b2 (ix1 j) := rfl

/-- An expert word is in range when, read signed, it is one of 0 … 7. -/
def InRange (e : SE.Idx → BitVec 32) : Prop := ∀ n : Fin 32768, 0 ≤ (e (ix1 n)).toInt ∧ (e (ix1 n)).toInt < 8

end Cert.Spec

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMaskedRows.lean ====
/-
  Rows, columns and 0/1 masks: small facts about re-laying a vector as a row or a column of a matrix and about masking
  by a bit, each read at one entry. Nothing here mentions a program.

  * `column_apply`         a 1×a row turned (transposed) into an a×1 column: entry p of the column is entry p of the row;
  * `transposed_apply`     the transpose of an a×b matrix: entry (p, q) is the matrix's entry (q, p);
  * `broadcast_col_apply`  an a×1 column repeated across b columns (trailing-axes broadcast): entry (p, q) is the column's entry p;
  * `bias_row_apply`       a vector of b entries laid out as one row and repeated down a rows (two broadcasts by
                           dimension maps): entry (p, q) is the vector's entry q;
  * `column_bcast_apply`   a vector of a entries stood up as one column and repeated across b columns: entry (p, q) is
                           the vector's entry p;
  * `gated_eq`             on the extended reals, multiplying ((z·s)·z) by a bit read as the number 0 or 1 is choosing
                           between z·z·s and 0 by the bit: only commutativity and the laws of 0 and 1 are used, so it holds
                           at the infinities too.
-/
import Idealize.ShloMosaic.PureOps.Ideal.Laws
import Idealize.ShloMosaic.Lib.ValueIdx
import Idealize.ShloMosaic.Lib.IdealHost
import Idealize.ShloMosaic.Lib.KernelVsHost
import Idealize.ShloMosaic.Lib.Pipeline.Value

noncomputable section

namespace Cert.Lib.MaskedRows

open Idealize.ShloMosaic Idealize.ShloMosaic.ValueIdx

/-- A 1×a row turned into an a×1 column: the column's entry p is the row's entry p. -/
theorem column_apply {α : Type} {a : Nat} (x : (⟨2, ![1, a]⟩ : Shape).Idx → α)
    (h : (⟨2, ![1, a]⟩ : Shape).Transposes [1, 0] ⟨2, ![a, 1]⟩) (p : Fin a) :
    transpose ⟨2, ![a, 1]⟩ [1, 0] x h (ix2 p 0) = x (ix2 0 p) := by
  refine transpose_apply _ x h _ _ fun b => ?_
  match b with
  | ⟨0, _⟩ => rfl
  | ⟨1, _⟩ => rfl

/-- The transpose of an a×b matrix: its entry (p, q) is the matrix's entry (q, p). -/
theorem transposed_apply {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) := by
  refine transpose_apply _ x h _ _ fun c => ?_
  match c with
  | ⟨0, _⟩ => rfl
  | ⟨1, _⟩ => rfl

/-- An a×1 column repeated across b columns: the entry (p, q) is the column's entry p. -/
theorem broadcast_col_apply {α : Type} {a b : Nat} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries laid out as one row and repeated down a rows: the entry (p, q) is the vector's entry q. -/
theorem bias_row_apply {α : Type} {a b : Nat} (x : (⟨1, ![b]⟩ : Shape).Idx → α)
    (h₁ : (⟨1, ![b]⟩ : Shape).BroadcastsInDim ⟨2, ![1, b]⟩ ![1])
    (h₂ : (⟨2, ![1, b]⟩ : Shape).BroadcastsInDim ⟨2, ![a, b]⟩ ![0, 1]) (p : Fin a) (q : Fin b) :
    broadcastInDim ⟨2, ![a, b]⟩ ![0, 1] h₂ (broadcastInDim ⟨2, ![1, b]⟩ ![1] h₁ x) (ix2 p q) = x (ix1 q) := by
  rw [broadcastInDim_oneRow_apply]
  refine broadcastInDim_apply ![1] h₁ x _ _ fun c => ?_
  match c with
  | ⟨0, _⟩ =>
    show q.val = if b = 1 then 0 else q.val
    split_ifs with hb
    · have := q.isLt; omega
    · rfl

/-- A vector of a entries stood up as one column and repeated across b columns: the entry (p, q) is the vector's
    entry p. -/
theorem column_bcast_apply {α : Type} {a b : Nat} (x : (⟨1, ![a]⟩ : Shape).Idx → α)
    (h₁ : (⟨1, ![a]⟩ : Shape).BroadcastsInDim ⟨2, ![a, 1]⟩ ![0])
    (h₂ : (⟨2, ![a, 1]⟩ : Shape).BroadcastsInDim ⟨2, ![a, b]⟩ ![0, 1]) (p : Fin a) (q : Fin b) :
    broadcastInDim ⟨2, ![a, b]⟩ ![0, 1] h₂ (broadcastInDim ⟨2, ![a, 1]⟩ ![0] h₁ x) (ix2 p q) = x (ix1 p) := by
  refine (broadcastInDim_apply ![0, 1] h₂ _ (ix2 p q) (ix2 p 0) fun c => ?_).trans
    (broadcastInDim_apply ![0] h₁ x (ix2 p 0) (ix1 p) fun c => ?_)
  · match c with
    | ⟨0, _⟩ =>
      show p.val = if a = 1 then 0 else p.val
      split_ifs with ha
      · have := p.isLt; omega
      · rfl
    | ⟨1, _⟩ => rfl
  · match c with
    | ⟨0, _⟩ =>
      show p.val = if a = 1 then 0 else p.val
      split_ifs with ha
      · have := p.isLt; omega
      · rfl

/-- Multiplying by a bit read as a number is choosing by the bit: ((z·s)·z)·1 = z·z·s and ((z·s)·z)·0 = 0. -/
theorem gated_eq (b : BitVec 1) (z s : EReal) :
    z * s * z * FloatOps.uitofp (F := Ideal) .f32 b = Scalar.select b (z * z * s) 0 := by
  rcases (by decide : ∀ b : BitVec 1, b = 0#1 ∨ b = 1#1) b with rfl | rfl
  · show z * s * z * (((0 : ℕ) : ℝ) : EReal) = 0
    simp
  · show z * s * z * (((1 : ℕ) : ℝ) : EReal) = z * z * s
    rw [Nat.cast_one, EReal.coe_one, mul_one, mul_right_comm]

end Cert.Lib.MaskedRows

end
-- ==== Proof.KernelBody.lean ====
/-
  One block of the fused two-layer map, read at a single output entry, on the extended reals.

  A block holds 1024 tokens. For token p and output feature q the block's value is
      Σ_k h(p, k) · W2(q, k) + b2(q),
  where h(p, k) is the self-gated activation g(z) = z · z · σ(z) of the hidden pre-activation
      z(p, k) = Σ_i x(p, i) · W1(k, i) + b1(k)
  when hidden unit k lies below the token's width (e(p) + 1) · 192 — the signed comparison of 32-bit words —, and 0
  otherwise. The lemmas below read each array operation of that expression at one index: the width and the mask as
  words (over a row of words turned into a column and a column repeated along rows), the affine pre-activation; the
  last theorem puts them together.
-/
import proofs.«138437_g67937792688175_cont_sun_m_1187_20_alg».proof.KernelIdeal
import proofs.«138437_g67937792688175_cont_sun_m_1187_20_alg».proof.Proof.Gen.KernelIdeal.Skeleton
import proofs.«138437_g67937792688175_cont_sun_m_1187_20_alg».proof.Proof.Spec
import proofs.«138437_g67937792688175_cont_sun_m_1187_20_alg».proof.Proof.LibBlockReads
import proofs.«138437_g67937792688175_cont_sun_m_1187_20_alg».proof.Proof.LibMaskedRows
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.BodyValue

open Cert.KernelIdeal Cert.KernelIdeal.Gen Idealize.ShloMosaic Idealize.ShloMosaic.ValueIdx Cert.Lib.MaskedRows

/-! ## The gate, entry by entry -/

/-- The logistic function of a block, entry by entry, is σ of the entry. -/
theorem logistic_apply {s : Shape} {φ : FTy} (x : FVec Ideal s φ) (i : s.Idx) :
    logistic x i = Ideal.logistic (x i) := rfl

/-! ## The width, the mask and the pre-activation at an index -/

/-- The column of widths: token p's word is (e(p) + 1) · 192, computed on 32-bit words from the row of expert words
    stood up as a column. -/
theorem width_apply (e : IVec S1x1024 32) (hc : S1x1024.ShapeCasts S1x1024)
    (ht : S1x1024.Transposes [1, 0] S1024x1) (p : Fin 1024) :
    muli (addi (transpose S1024x1 [1, 0] (shapeCast S1x1024 e hc) ht) (broadcast S1024x1 1#32))
        (broadcast S1024x1 192#32) (ix2 p 0) = Cert.Spec.width (e (ix2 0 p)) := by
  rw [shapeCast_self]
  show (transpose S1024x1 [1, 0] e ht (ix2 p 0) + 1#32) * 192#32 = _
  rw [column_apply e ht p]
  rfl

/-- The mask: at (p, k) the column number k, as a word, is compared (signed, strictly below) with row p's width. -/
theorem mask_apply (w : IVec S1024x1 32) (hi : S1024x1536.Iotas .tc 32 [1])
    (hb : S1024x1.Broadcasts S1024x1536) (p : Fin 1024) (k : Fin 1536) :
    cmpi .slt (iota .tc S1024x1536 32 [1] hi) (broadcastTo S1024x1536 w hb) (ix2 p k)
      = IntOp.cmpi .slt (BitVec.ofNat 32 k.val) (w (ix2 p 0)) := by
  show IntOp.cmpi .slt (iota .tc S1024x1536 32 [1] hi (ix2 p k)) (broadcastTo S1024x1536 w hb (ix2 p k)) = _
  rw [iota_single_apply, broadcast_col_apply w hb p k]

/-- The hidden pre-activation: x · W1ᵀ accumulated into zeros, plus the bias row repeated down the rows, is at (p, k)
    the affine form Σ_i x(p, i) · W1(k, i) + b1(k). -/
theorem pre_apply (d : DotDims S1024x768 S1536x768 S1024x1536)
    (hlc : d.lhsContracting = [1]) (hrc : d.rhsContracting = [1]) (hln : d.lhsNonContracting = [0])
    (hrn : d.rhsNonContracting = [0]) (hlb : d.lhsBatch = []) (hrb : d.rhsBatch = [])
    (x : FVec Ideal S1024x768 .f32) (w : FVec Ideal S1536x768 .f32) (b : FVec Ideal S1x1536 .f32)
    (hc : S1x1536.ShapeCasts S1x1536) (hb : S1x1536.Broadcasts S1024x1536) (p : Fin 1024) (k : Fin 1536) :
    addf (matmul d none x w (constant S1024x1536 .f32 0x00000000#32))
        (broadcastTo S1024x1536 (shapeCast S1x1536 b hc) hb) (ix2 p k)
      = (∑ i : Fin 768, x (ix2 p i) * w (ix2 k i)) + b (ix2 0 k) := by
  rw [shapeCast_self]
  refine (addf_apply _ _ _).trans ?_
  rw [Cert.Lib.BlockReads.matmul_zero_cols_apply d hlc hrc hln hrn hlb hrb none x w p k,
    Cert.Lib.BlockReads.broadcast_row_apply b hb p k]

/-! ## The block's value at an index -/

/-- The block's value at (p, q): the sum over hidden units k of the masked activation times W2(q, k), plus b2(q).
    The outer sum is the second product's contraction; under it, the selected value at (p, k) is the activation of the
    pre-activation where the mask holds and the number 0 (what the all-zero pattern denotes) elsewhere. -/
theorem body_apply (v0 : Vec Ideal S1024x768 .f32) (v1 : Vec Ideal S1536x768 .f32) (v3 : Vec Ideal S1x1536 .f32)
    (v7 : Vec Ideal S1x1024 .i32) (v22 : Vec Ideal S768x1536 .f32) (v24 : Vec Ideal S1x768 .f32) (p : Fin 1024) (q : Fin 768) :
    Gen.k0_pay1 (F := Ideal) v0 v1 v3 v7 v22 v24 (ix2 p q)
      = (∑ k : Fin 1536, Scalar.select (Cert.Spec.keeps (v7 (ix2 0 p)) k)
            (Cert.Spec.gate ((∑ i : Fin 768, v0 (ix2 p i) * v1 (ix2 k i)) + v3 (ix2 0 k))) 0 * v22 (ix2 q k))
        + v24 (ix2 0 q) := by
  unfold Gen.k0_pay1
  dsimp only
  refine (addf_apply _ _ _).trans ?_
  refine congrArg₂ (· + ·) ?_ ?_
  · refine (Cert.Lib.BlockReads.matmul_zero_cols_apply _ rfl rfl rfl rfl rfl rfl none _ _ p q).trans ?_
    refine Finset.sum_congr rfl fun k _ => ?_
    refine congrArg (· * v22 (ix2 q k)) ?_
    refine (select_apply _ _ _ _).trans ?_
    rw [mask_apply, width_apply]
    rw [mulf_apply, mulf_apply, logistic_apply, pre_apply _ rfl rfl rfl rfl rfl rfl v0 v1 v3 _ _ p k]
    show Scalar.select _ _ (Ideal.ofBits .f32 0x00000000#32) = _
    rw [Ideal.ofBits_zero_f32]
    rfl
  · rw [shapeCast_self]
    exact Cert.Lib.BlockReads.broadcast_row_apply v24 _ p q

end Cert.KernelIdeal.BodyValue

end
-- ==== Proof.KernelValue.lean ====
/-
  The kernel's result array, as one function of the argument arrays.

  The kernel works on 32 blocks of 1024 tokens. At block t it sees rows t·1024 … t·1024 + 1023 of the tokens x and of the
  expert words (laid out as one row of 32768 words), and the whole of W1, b1, W2, b2 (the biases laid out as one row
  each); it writes rows t·1024 … t·1024 + 1023 of the result. Row p of block t is token t·1024 + p, so what the block
  computes at (p, q) — the two-layer map of that token, read at feature q — is the specified function at
  (t·1024 + p, q). Every row of the result lies in exactly one block (row r in block r / 1024), so after the run the
  result array is the specified function everywhere.
-/
import proofs.«138437_g67937792688175_cont_sun_m_1187_20_alg».proof.Proof.Gen.KernelIdeal.Value
import proofs.«138437_g67937792688175_cont_sun_m_1187_20_alg».proof.Proof.KernelBody
import proofs.«138437_g67937792688175_cont_sun_m_1187_20_alg».proof.Proof.Spec
import Idealize.ShloMosaic.Lib.StableHlo.Run
import Idealize.ShloMosaic.Lib.Pipeline.Value
import Idealize.ShloMosaic.Lib.ValueIdx

open scoped BigOperators

noncomputable section

namespace Cert.KernelIdeal.BlockValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The specified function of the argument arrays as launched. -/
abbrev G (c : Dev nD) : Cert.Spec.SX.Idx → EReal :=
  Cert.Spec.out (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-! ## The one-row layouts of the expert words and the biases -/

/-- The expert words laid out as one row: the row's entry r is word r. -/
theorem words_row (c : Dev nD) (r : Fin 32768) :
    (V m c main_v0 : S1x32768.Idx → BitVec 32) (ix2 0 r)
      = (m ((c : Thread nD τ).loc main_arg1) : S32768.Idx → BitVec 32) (ix1 r) := by
  dsimp only [Gen.V, Gen.hostOps0]
  after_results
  show shapeCast S1x32768 (m ((c : Thread nD τ).loc main_arg1) : S32768.Idx → BitVec 32) _ (ix2 0 r) = _
  refine shapeCast_apply _ _ _ _ ?_
  show (S32768.rowMajor (ix1 r)).val = (S1x32768.rowMajor (ix2 0 r)).val
  rw [Shape.rowMajor_val_two, Shape.rowMajor_val_one]
  show r.val = 0 * 32768 + r.val
  omega

/-- The first bias laid out as one row: the row's entry k is b1(k). -/
theorem bias1_row (c : Dev nD) (k : Fin 1536) :
    (V m c main_v1 : S1x1536.Idx → EReal) (ix2 0 k)
      = (m ((c : Thread nD τ).loc main_arg3) : S1536.Idx → EReal) (ix1 k) := by
  dsimp only [Gen.V, Gen.hostOps0]
  after_results
  show shapeCast S1x1536 (m ((c : Thread nD τ).loc main_arg3) : S1536.Idx → EReal) _ (ix2 0 k) = _
  refine shapeCast_apply _ _ _ _ ?_
  show (S1536.rowMajor (ix1 k)).val = (S1x1536.rowMajor (ix2 0 k)).val
  rw [Shape.rowMajor_val_two, Shape.rowMajor_val_one]
  show k.val = 0 * 1536 + k.val
  omega

/-- The second bias laid out as one row: the row's entry j is b2(j). -/
theorem bias2_row (c : Dev nD) (j : Fin 768) :
    (V m c main_v2 : S1x768.Idx → EReal) (ix2 0 j)
      = (m ((c : Thread nD τ).loc main_arg5) : S768.Idx → EReal) (ix1 j) := by
  dsimp only [Gen.V, Gen.hostOps0]
  after_results
  show shapeCast S1x768 (m ((c : Thread nD τ).loc main_arg5) : S768.Idx → EReal) _ (ix2 0 j) = _
  refine shapeCast_apply _ _ _ _ ?_
  show (S768.rowMajor (ix1 j)).val = (S1x768.rowMajor (ix2 0 j)).val
  rw [Shape.rowMajor_val_two, Shape.rowMajor_val_one]
  show j.val = 0 * 768 + j.val
  omega

/-! ## Which block of each array a grid point sees -/

theorem hz : (![0, 0] : Fin 2 → Nat) = fun _ => 0 := funext fun a => by fin_cases a <;> rfl

/-- The result's block of rows at point t is one of 0 … 31, and spans all columns. -/
theorem idx_out : ∀ t : Fin cfg0.N, win0_6.index t (0 : Fin 2) ≤ 31 ∧ win0_6.index t (1 : Fin 2) = 0 :=
  (by decide +kernel : ∀ t : Fin grid0.N, _)

/-- The expert words' block at point t is the same stretch of the one row; the tokens' block the same rows. -/
theorem idx_moving : ∀ t : Fin cfg0.N,
    win0_0.index t (0 : Fin 2) = 0 ∧ win0_0.index t (1 : Fin 2) = win0_6.index t (0 : Fin 2)
    ∧ win0_1.index t (0 : Fin 2) = win0_6.index t (0 : Fin 2) ∧ win0_1.index t (1 : Fin 2) = 0 :=
  (by decide +kernel : ∀ t : Fin grid0.N, _)

/-- The weights and biases are seen whole at every point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every block of rows is some point's. -/
theorem idx_onto : ∀ q0 : Fin 32, ∃ t : Fin cfg0.N, win0_6.index t = ![q0.val, 0] :=
  (by decide +kernel : ∀ q0 : Fin 32, ∃ t : Fin grid0.N, win0_6.index t = ![q0.val, 0])

/-- The token that row p of point t's block is. -/
def row (t : Fin cfg0.N) (p : Fin 1024) : Fin 32768 :=
  ⟨win0_6.index t (0 : Fin 2) * 1024 + p.val, by have := (idx_out t).1; have := p.isLt; omega⟩

/-! ## The blocks read at an index -/

/-- Row p of the tokens' block at point t is token `row t p`. -/
theorem read_x (c : Dev nD) (t : Fin cfg0.N) (p : Fin 1024) (i : Fin 768) :
    iblk m c 1 t (ix2 p i) = (m ((c : Thread nD τ).loc main_arg0) : S32768x768.Idx → EReal) (ix2 (row t p) i) := by
  show V m c main_arg0 (((cfg0.win 1).blk t).view.emb (ix2 p i)) = _
  rw [V_main_arg0]
  have h : ((cfg0.win 1).blk t).view.emb (ix2 p i) = ix2 (row t p) i := by
    funext a; apply Fin.ext
    obtain ⟨_, _, e0, e1⟩ := idx_moving t
    match a with
    | ⟨0, _⟩ => show win0_1.index t (0 : Fin 2) * 1024 + 1 * p.val = win0_6.index t (0 : Fin 2) * 1024 + p.val; omega
    | ⟨1, _⟩ => show win0_1.index t (1 : Fin 2) * 768 + 1 * i.val = i.val; omega
  rw [h]

/-- Entry p of the expert words' block at point t is the word of token `row t p`. -/
theorem read_e (c : Dev nD) (t : Fin cfg0.N) (p : Fin 1024) :
    iblk m c 0 t (ix2 0 p) = (m ((c : Thread nD τ).loc main_arg1) : S32768.Idx → BitVec 32) (ix1 (row t p)) := by
  show V m c main_v0 (((cfg0.win 0).blk t).view.emb (ix2 0 p)) = _
  have h : ((cfg0.win 0).blk t).view.emb (ix2 0 p) = ix2 0 (row t p) := by
    funext a; apply Fin.ext
    obtain ⟨e0, e1, _, _⟩ := idx_moving t
    match a with
    | ⟨0, _⟩ => show win0_0.index t (0 : Fin 2) * 1 + 1 * 0 = 0; omega
    | ⟨1, _⟩ => show win0_0.index t (1 : Fin 2) * 1024 + 1 * p.val = win0_6.index t (0 : Fin 2) * 1024 + p.val; omega
  rw [h]
  exact words_row m c (row t p)

/-- The first weights are seen whole. -/
theorem read_w1 (c : Dev nD) (t : Fin cfg0.N) (k : Fin 1536) (i : Fin 768) :
    iblk m c 2 t (ix2 k i) = (m ((c : Thread nD τ).loc main_arg2) : S1536x768.Idx → EReal) (ix2 k i) := by
  show V m c main_arg2 (((cfg0.win 2).blk t).view.emb (ix2 k i)) = _
  rw [V_main_arg2]
  have h : ((cfg0.win 2).blk t).view.emb (ix2 k i) = ix2 k i := by
    funext a; apply Fin.ext
    obtain ⟨e0, e1, _⟩ := idx_whole t
    match a with
    | ⟨0, _⟩ => show win0_2.index t (0 : Fin 2) * 1536 + 1 * k.val = k.val; omega
    | ⟨1, _⟩ => show win0_2.index t (1 : Fin 2) * 768 + 1 * i.val = i.val; omega
  rw [h]

/-- The first bias row is seen whole. -/
theorem read_b1 (c : Dev nD) (t : Fin cfg0.N) (k : Fin 1536) :
    iblk m c 3 t (ix2 0 k) = (m ((c : Thread nD τ).loc main_arg3) : S1536.Idx → EReal) (ix1 k) := by
  show V m c main_v1 (((cfg0.win 3).blk t).view.emb (ix2 0 k)) = _
  have h : ((cfg0.win 3).blk t).view.emb (ix2 0 k) = ix2 0 k := by
    funext a; apply Fin.ext
    obtain ⟨_, _, e0, e1, _⟩ := idx_whole t
    match a with
    | ⟨0, _⟩ => show win0_3.index t (0 : Fin 2) * 1 + 1 * 0 = 0; omega
    | ⟨1, _⟩ => show win0_3.index t (1 : Fin 2) * 1536 + 1 * k.val = k.val; omega
  rw [h]
  exact bias1_row m c k

/-- The second weights are seen whole. -/
theorem read_w2 (c : Dev nD) (t : Fin cfg0.N) (q : Fin 768) (k : Fin 1536) :
    iblk m c 4 t (ix2 q k) = (m ((c : Thread nD τ).loc main_arg4) : S768x1536.Idx → EReal) (ix2 q k) := by
  show V m c main_arg4 (((cfg0.win 4).blk t).view.emb (ix2 q k)) = _
  rw [V_main_arg4]
  have h : ((cfg0.win 4).blk t).view.emb (ix2 q k) = ix2 q k := by
    funext a; apply Fin.ext
    obtain ⟨_, _, _, _, e0, e1, _⟩ := idx_whole t
    match a with
    | ⟨0, _⟩ => show win0_4.index t (0 : Fin 2) * 768 + 1 * q.val = q.val; omega
    | ⟨1, _⟩ => show win0_4.index t (1 : Fin 2) * 1536 + 1 * k.val = k.val; omega
  rw [h]

/-- The second bias row is seen whole. -/
theorem read_b2 (c : Dev nD) (t : Fin cfg0.N) (q : Fin 768) :
    iblk m c 5 t (ix2 0 q) = (m ((c : Thread nD τ).loc main_arg5) : S768.Idx → EReal) (ix1 q) := by
  show V m c main_v2 (((cfg0.win 5).blk t).view.emb (ix2 0 q)) = _
  have h : ((cfg0.win 5).blk t).view.emb (ix2 0 q) = ix2 0 q := by
    funext a; apply Fin.ext
    obtain ⟨_, _, _, _, _, _, e0, e1⟩ := idx_whole t
    match a with
    | ⟨0, _⟩ => show win0_5.index t (0 : Fin 2) * 1 + 1 * 0 = 0; omega
    | ⟨1, _⟩ => show win0_5.index t (1 : Fin 2) * 768 + 1 * q.val = q.val; omega
  rw [h]
  exact bias2_row m c q

/-! ## What a point writes back, the cover, and the array -/

/-- What point t writes back is block t of the specified function: row p of the block is token `row t p`, and every
    array the block's value reads is read at that token (or whole). -/
theorem flushed_eq (c : Dev nD) (t : Fin cfg0.N) :
    (dats m 0 c).flushed 6 t = ((cfg0.win 6).blk t).view.read (Elt Ideal) (G m c) := by
  rw [Cert.KernelIdeal.Value.flushed6]
  unfold out0_6
  rw [View.canon_unit_zero hz]
  simp only [View.ld_unit_zero (S := S1024x768) hz, View.ld_unit_zero (S := S1536x768) hz,
    View.ld_unit_zero (S := S1x1536) hz, View.ld_unit_zero (S := S1x1024) hz, View.ld_unit_zero (S := S768x1536) hz,
    View.ld_unit_zero (S := S1x768) hz]
  funext y
  obtain ⟨p, q, rfl⟩ : ∃ (p : Fin 1024) (q : Fin 768), y = ix2 p q := ⟨y 0, y 1, eq_ix2 y⟩
  show k0_pay1 (iblk m c 1 t) (iblk m c 2 t) (iblk m c 3 t) (iblk m c 0 t) (iblk m c 4 t) (iblk m c 5 t) (ix2 p q)
    = G m c (((cfg0.win 6).blk t).view.emb (ix2 p q))
  have h : ((cfg0.win 6).blk t).view.emb (ix2 p q) = ix2 (row t p) q := by
    funext a; apply Fin.ext
    obtain ⟨_, e1⟩ := idx_out t
    match a with
    | ⟨0, _⟩ => show win0_6.index t (0 : Fin 2) * 1024 + 1 * p.val = win0_6.index t (0 : Fin 2) * 1024 + p.val; omega
    | ⟨1, _⟩ => show win0_6.index t (1 : Fin 2) * 768 + 1 * q.val = q.val; omega
  rw [h]
  unfold G
  rw [Cert.Spec.out_apply]
  refine (Cert.KernelIdeal.BodyValue.body_apply (iblk m c 1 t) (iblk m c 2 t) (iblk m c 3 t) (iblk m c 0 t)
    (iblk m c 4 t) (iblk m c 5 t) p q).trans ?_
  refine congrArg₂ (· + ·) (Finset.sum_congr rfl fun k _ => ?_) (read_b2 m c t q)
  unfold Cert.Spec.hid Cert.Spec.pre
  rw [read_e m c t p, read_w2 m c t q k, read_b1 m c t k]
  refine congrArg (fun s => Scalar.select _ (Cert.Spec.gate (s + _)) 0 * _) (Finset.sum_congr rfl fun i _ => ?_)
  rw [read_x m c t p i, read_w1 m c t k i]

/-- An index of the result is in point t's block iff each coordinate is in the block's range on its axis. -/
theorem mem_blk (t : Fin cfg0.N) (i : S32768x768.Idx) :
    i ∈ ((cfg0.win 6).blk t).view.set ↔ ∀ a : Fin 2, win0_6.index t a * S1024x768.size a ≤ (i a).val
      ∧ (i a).val < win0_6.index t a * S1024x768.size a + S1024x768.size a := by
  show i ∈ ((View.whole main_v3).slice (win0_6.rect t)).set ↔ _
  rw [View.set_slice_whole, Rect.mem_set_unit]
  exact Iff.rfl

/-- Every index of the result lies in some point's block: row r in the block r / 1024. -/
theorem cover (i : S32768x768.Idx) : ∃ t : Fin cfg0.N, (cfg0.win 6).flush t = true ∧ i ∈ ((cfg0.win 6).blk t).view.set := by
  have hi0 : (i 0).val < 32768 := (i 0).isLt
  have hi1 : (i 1).val < 768 := (i 1).isLt
  obtain ⟨t, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 768 ≤ (i 1).val ∧ (i 1).val < win0_6.index t (1 : Fin 2) * 768 + 768; omega

/-- The result array after the run is the specified function of the argument arrays. -/
theorem final (c : Dev nD) : (dats m 0 c).arrAt 6 cfg0.N = G m c :=
  (dats m 0 c).arrAt_eq_of_cover 6 (G m c) (fun t _ => flushed_eq m c t) (cover)

/-- Every weakly fair execution of the kernel's program terminates with the result array at the specified function of
    the argument arrays, the argument arrays as they were. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.BlockValue

end
-- ==== Proof.RefOps.lean ====
/-
  The reference program as a straight line, and the value it computes as a term.

  The reference's entry function calls three small functions (the table look-up that turns an expert word into a kept
  width, the select inside it, and x ↦ x · σ(x)); executing a call is executing the callee's operations on the call's own
  buffers, so the whole program is one line of 51 operations: `ops`. Read from the last operation backwards, the
  result is a composition of five stages, each a function of the argument arrays alone:
    `zTerm`     the hidden pre-activation  x · W1ᵀ + b1  (a matrix product with the transposed weights, plus the bias row);
    `takeTerm`  the kept width per token: the expert word, with 8 added when negative, looks up the table
                (192, 384, …, 1536); a word still outside 0 … 7 gives the least 32-bit integer instead;
    `maskTerm`  1 where the hidden unit's number is below the token's kept width, 0 elsewhere;
    `siluTerm`  z · (1 / (1 + e^(−z)));
    `outTerm`   ((silu z · z) · mask) · W2ᵀ + b2.
-/
import proofs.«138437_g67937792688175_cont_sun_m_1187_20_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The entry function's operations with the three called functions' operations in place of the calls, in order. -/
abbrev ops : List (HloOp τ sig (Elt F)) :=
  [ nullary main_c (fun i => lit0 (S8.rowMajor i)),
    unary main_arg2 main_v0 ((transpose S768x1536 [1, 0] · transposes_S1536x768_S768x1536_1_0) : (⟨S1536x768, .f32⟩ : BufTy).Contents (Elt F) → (⟨S768x1536, .f32⟩ : BufTy).Contents (Elt F)),
    binary main_arg0 main_v0 main_v1 ((fun l r => Host.dotGeneral dot_S32768x768_S768x1536_S32768x1536_1_0_0_1_n_n none l r) : (⟨S32768x768, .f32⟩ : BufTy).Contents (Elt F) → (⟨S768x1536, .f32⟩ : BufTy).Contents (Elt F) → (⟨S32768x1536, .f32⟩ : BufTy).Contents (Elt F)),
    unary main_arg3 main_v2 (broadcastInDim S1x1536 ![1] bcast_S1536_S1x1536_1 : (⟨S1536, .f32⟩ : BufTy).Contents (Elt F) → (⟨S1x1536, .f32⟩ : BufTy).Contents (Elt F)),
    unary main_v2 main_v3 (broadcastInDim S32768x1536 ![0, 1] bcast_S1x1536_S32768x1536_0_1 : (⟨S1x1536, .f32⟩ : BufTy).Contents (Elt F) → (⟨S32768x1536, .f32⟩ : BufTy).Contents (Elt F)),
    binary main_v1 main_v3 main_v4 (addf : (⟨S32768x1536, .f32⟩ : BufTy).Contents (Elt F) → (⟨S32768x1536, .f32⟩ : BufTy).Contents (Elt F) → (⟨S32768x1536, .f32⟩ : BufTy).Contents (Elt F)),
    -- the table look-up, on the expert words
    TRef.nullary main_call0.c (constantI S_ 32 0#32),
    TRef.unary main_call0.c main_call0.v0 (broadcastInDim S32768 ![] bcast_S_S32768),
    TRef.binary (.of main_arg1) main_call0.v0 main_call0.v1 (cmpi .slt),
    TRef.nullary main_call0.c_0 (constantI S_ 32 8#32),
    TRef.unary main_call0.c_0 main_call0.v2 (broadcastInDim S32768 ![] bcast_S_S32768),
    TRef.binary (.of main_arg1) main_call0.v2 main_call0.v3 addi,
    TRef.ternary main_call0.v1 main_call0.v3 (.of main_arg1) main_call0.call0.v0 select,
    TRef.unary main_call0.call0.v0 main_call0.v5 (broadcastInDim S32768x1 ![0] bcast_S32768_S32768x1_0),
    TRef.nullary main_call0.c_1 (constantI S1 32 7#32),
    TRef.nullary main_call0.c_2 (constantI S_ 32 0#32),
    TRef.unary main_call0.c_2 main_call0.v6 (broadcastInDim S32768x1 ![] bcast_S_S32768x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S32768x1 ![0, 1] bcast_S1x1_S32768x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32768x1_S32768_d1 h_S_),
    TRef.binary (.of main_c) main_call0.v5 main_call0.v13 (fun x i => Host.gather gather_S8_S32768x1_S32768_n_0_n_n_0_1_1 x i),
    TRef.nullary main_call0.c_4 (constantI S_ 32 2147483648#32),
    TRef.unary main_call0.c_4 main_call0.v14 (broadcastInDim S32768 ![] bcast_S_S32768),
    TRef.ternary main_call0.v12 main_call0.v13 main_call0.v14 main_call0.v15 select,
    -- the mask of kept hidden units
    nullary main_v6 (iotaInDim S1536 32 0),
    unary main_v6 main_v7 (broadcastInDim S1x1536 ![1] bcast_S1536_S1x1536_1 : (⟨S1536, .i32⟩ : BufTy).Contents (Elt F) → (⟨S1x1536, .i32⟩ : BufTy).Contents (Elt F)),
    unary main_v5 main_v8 (broadcastInDim S32768x1 ![0] bcast_S32768_S32768x1_0 : (⟨S32768, .i32⟩ : BufTy).Contents (Elt F) → (⟨S32768x1, .i32⟩ : BufTy).Contents (Elt F)),
    unary main_v7 main_v9 (broadcastInDim S32768x1536 ![0, 1] bcast_S1x1536_S32768x1536_0_1 : (⟨S1x1536, .i32⟩ : BufTy).Contents (Elt F) → (⟨S32768x1536, .i32⟩ : BufTy).Contents (Elt F)),
    unary main_v8 main_v10 (broadcastInDim S32768x1536 ![0, 1] bcast_S32768x1_S32768x1536_0_1 : (⟨S32768x1, .i32⟩ : BufTy).Contents (Elt F) → (⟨S32768x1536, .i32⟩ : BufTy).Contents (Elt F)),
    binary main_v9 main_v10 main_v11 (cmpi .slt : (⟨S32768x1536, .i32⟩ : BufTy).Contents (Elt F) → (⟨S32768x1536, .i32⟩ : BufTy).Contents (Elt F) → (⟨S32768x1536, .i1⟩ : BufTy).Contents (Elt F)),
    unary main_v11 main_v12 (uitofp .f32 : (⟨S32768x1536, .i1⟩ : BufTy).Contents (Elt F) → (⟨S32768x1536, .f32⟩ : BufTy).Contents (Elt F)),
    -- x ↦ x · σ(x), on the pre-activation
    TRef.unary (.of main_v4) main_call1.v0 Host.negf,
    TRef.unary main_call1.v0 main_call1.v1 Host.exp,
    TRef.nullary main_call1.cst (constant S_ .f32 0x3F800000#32),
    TRef.unary main_call1.cst main_call1.v2 (broadcastInDim S32768x1536 ![] bcast_S_S32768x1536),
    TRef.binary main_call1.v2 main_call1.v1 main_call1.v3 addf,
    TRef.nullary main_call1.cst_0 (constant S_ .f32 0x3F800000#32),
    TRef.unary main_call1.cst_0 main_call1.v4 (broadcastInDim S32768x1536 ![] bcast_S_S32768x1536),
    TRef.binary main_call1.v4 main_call1.v3 main_call1.v5 Host.divf,
    TRef.binary (.of main_v4) main_call1.v5 main_call1.v6 mulf,
    -- the gated, masked activation and the second product
    binary main_v13 main_v4 main_v14 (mulf : (⟨S32768x1536, .f32⟩ : BufTy).Contents (Elt F) → (⟨S32768x1536, .f32⟩ : BufTy).Contents (Elt F) → (⟨S32768x1536, .f32⟩ : BufTy).Contents (Elt F)),
    binary main_v14 main_v12 main_v15 (mulf : (⟨S32768x1536, .f32⟩ : BufTy).Contents (Elt F) → (⟨S32768x1536, .f32⟩ : BufTy).Contents (Elt F) → (⟨S32768x1536, .f32⟩ : BufTy).Contents (Elt F)),
    unary main_arg4 main_v16 ((transpose S1536x768 [1, 0] · transposes_S768x1536_S1536x768_1_0) : (⟨S768x1536, .f32⟩ : BufTy).Contents (Elt F) → (⟨S1536x768, .f32⟩ : BufTy).Contents (Elt F)),
    binary main_v15 main_v16 main_v17 ((fun l r => Host.dotGeneral dot_S32768x1536_S1536x768_S32768x768_1_0_0_1_n_n none l r) : (⟨S32768x1536, .f32⟩ : BufTy).Contents (Elt F) → (⟨S1536x768, .f32⟩ : BufTy).Contents (Elt F) → (⟨S32768x768, .f32⟩ : BufTy).Contents (Elt F)),
    unary main_arg5 main_v18 (broadcastInDim S1x768 ![1] bcast_S768_S1x768_1 : (⟨S768, .f32⟩ : BufTy).Contents (Elt F) → (⟨S1x768, .f32⟩ : BufTy).Contents (Elt F)),
    unary main_v18 main_v19 (broadcastInDim S32768x768 ![0, 1] bcast_S1x768_S32768x768_0_1 : (⟨S1x768, .f32⟩ : BufTy).Contents (Elt F) → (⟨S32768x768, .f32⟩ : BufTy).Contents (Elt F)),
    binary main_v17 main_v19 main_v20 (addf : (⟨S32768x768, .f32⟩ : BufTy).Contents (Elt F) → (⟨S32768x768, .f32⟩ : BufTy).Contents (Elt F) → (⟨S32768x768, .f32⟩ : BufTy).Contents (Elt F)) ]

/-! ## The value, stage by stage -/

/-- The hidden pre-activation: the product of the tokens with the transposed first weights, plus the bias row. -/
def zTerm (a0 : FVec F S32768x768 .f32) (a2 : FVec F S1536x768 .f32) (a3 : FVec F S1536 .f32) : FVec F S32768x1536 .f32 :=
  addf (Host.dotGeneral dot_S32768x768_S768x1536_S32768x1536_1_0_0_1_n_n none a0
      (transpose S768x1536 [1, 0] a2 transposes_S1536x768_S768x1536_1_0))
    (broadcastInDim S32768x1536 ![0, 1] bcast_S1x1536_S32768x1536_0_1 (broadcastInDim S1x1536 ![1] bcast_S1536_S1x1536_1 a3))

/-- The look-up index per token, as a column: the expert word, with 8 added when it is negative. -/
def idxTerm (a1 : IVec S32768 32) : IVec S32768x1 32 :=
  broadcastInDim S32768x1 ![0] bcast_S32768_S32768x1_0
    (select (cmpi .slt a1 (broadcastInDim S32768 ![] bcast_S_S32768 (constantI S_ 32 0#32)))
      (addi a1 (broadcastInDim S32768 ![] bcast_S_S32768 (constantI S_ 32 8#32))) a1)

/-- The kept width per token: the table's entry at the index when the index is one of 0 … 7, else the least integer. -/
def takeTerm (a1 : IVec S32768 32) : IVec S32768 32 :=
  select
    (Host.reduce IntOp.andi
      (andi (cmpi .sge (idxTerm a1) (broadcastInDim S32768x1 ![] bcast_S_S32768x1 (constantI S_ 32 0#32)))
        (cmpi .sle (idxTerm a1) (broadcastInDim S32768x1 ![0, 1] bcast_S1x1_S32768x1_0_1
          (broadcastInDim S1x1 ![1] bcast_S1_S1x1_1 (constantI S1 32 7#32)))))
      (constantI S_ 1 1#1) reducesTo_S32768x1_S32768_d1 h_S_)
    (Host.gather gather_S8_S32768x1_S32768_n_0_n_n_0_1_1 (fun i => lit0 (S8.rowMajor i)) (idxTerm a1))
    (broadcastInDim S32768 ![] bcast_S_S32768 (constantI S_ 32 2147483648#32))

/-- The mask: 1 where the hidden unit's number is below the token's kept width, 0 elsewhere. -/
def maskTerm (a1 : IVec S32768 32) : FVec F S32768x1536 .f32 :=
  uitofp .f32
    (cmpi .slt
      (broadcastInDim S32768x1536 ![0, 1] bcast_S1x1536_S32768x1536_0_1
        (broadcastInDim S1x1536 ![1] bcast_S1536_S1x1536_1 (iotaInDim S1536 32 0)))
      (broadcastInDim S32768x1536 ![0, 1] bcast_S32768x1_S32768x1536_0_1
        (broadcastInDim S32768x1 ![0] bcast_S32768_S32768x1_0 (takeTerm a1))))

/-- z ↦ z · (1 / (1 + e^(−z))), entry by entry. -/
def siluTerm (z : FVec F S32768x1536 .f32) : FVec F S32768x1536 .f32 :=
  mulf z (Host.divf (broadcastInDim S32768x1536 ![] bcast_S_S32768x1536 (constant S_ .f32 0x3F800000#32))
    (addf (broadcastInDim S32768x1536 ![] bcast_S_S32768x1536 (constant S_ .f32 0x3F800000#32)) (Host.exp (Host.negf z))))

/-- The reference's result: ((silu z · z) · mask) times the transposed second weights, plus the bias row. -/
def outTerm (a0 : FVec F S32768x768 .f32) (a1 : IVec S32768 32) (a2 : FVec F S1536x768 .f32) (a3 : FVec F S1536 .f32)
    (a4 : FVec F S768x1536 .f32) (a5 : FVec F S768 .f32) : FVec F S32768x768 .f32 :=
  addf (Host.dotGeneral dot_S32768x1536_S1536x768_S32768x768_1_0_0_1_n_n none
      (mulf (mulf (siluTerm (zTerm a0 a2 a3)) (zTerm a0 a2 a3)) (maskTerm a1))
      (transpose S1536x768 [1, 0] a4 transposes_S768x1536_S1536x768_1_0))
    (broadcastInDim S32768x768 ![0, 1] bcast_S1x768_S32768x768_0_1 (broadcastInDim S1x768 ![1] bcast_S768_S1x768_1 a5))

end Cert.ReferenceIdeal.RefValue

end
-- ==== Proof.RefRun.lean ====
/-
  The reference program's run, over its operations listed as one straight line.

  The entry function is a sequence of single operations and three calls; a call is its callee's operations run on the
  call's own buffers. With the callees' definitions put in place of the calls and the sequencing re-associated, the entry
  function is literally the sequence of the 51 listed operations. Every operation reads and writes buffers of the one
  compute core only, and the program declares no scoped buffer or semaphore, so the general theorem about straight-line
  programs applies: every weakly fair execution from a memory with all counters at zero terminates, and in every final
  state each buffer holds the fold of the operations' results over what the buffer held at launch.
-/
import proofs.«138437_g67937792688175_cont_sun_m_1187_20_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

-- fifty-one sequencing steps are re-associated one inside the other: the rewriting recurses once per operation
set_option maxRecDepth 1024 in
/-- The entry function is the listed straight line: the three called functions unfolded at their calls, the calls'
    buffer records at their fields, and the sequencing re-associated, the two sides are the same chain of steps. -/
theorem main_eq (c : Dev nD) : main (F := F) c = seq ops := by
  simp only [main, fn_take.body, fn_where.body, fn_silu.body, seq, bind_assoc, pure_bind] <;> rfl

/-- No buffer of the program is scoped to a region. -/
theorem scopedRefs_eq : (Finset.univ.filter fun b : Ref sig .tc => b.isScoped) = ∅ := by decide
/-- No semaphore of the program is scoped to a region. -/
theorem scopedSems_eq : (Finset.univ.filter fun sm : SemLoc sig => sm.isScoped .tc) = ∅ := by decide

/-- Each listed operation touches buffers of the compute core only (one entry per operation, in order). -/
theorem ops_sub : (ops : List (HloOp τ sig (Elt F))).Forall fun op => op.bufs ⊆ tcRefs τ sig :=
  ⟨nullary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., nullary_bufs_sub .., unary_bufs_sub ..,
    unary_bufs_sub .., unary_bufs_sub .., unary_bufs_sub .., binary_bufs_sub .., unary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., binary_bufs_sub .., unary_bufs_sub .., binary_bufs_sub ..,
    unary_bufs_sub .., unary_bufs_sub .., binary_bufs_sub ..⟩

/-- For any float values, from any memory with zero counters: every weakly fair execution of the entry function
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.LibRefCasts.lean ====
/-
  A typed reference made from a literal buffer whose type is, by computation, the value's own type carries contents
  to the buffer's type and back along an equation between a type and itself: the contents are unchanged, in either
  direction. Nothing here mentions a program.
-/
import Idealize.ShloMosaic.Lib.StableHlo

namespace Cert.Lib.RefCasts

open Idealize.ShloMosaic Idealize.ShloMosaic.StableHlo

variable {sig : RefSig} {Val : EltTy → Type}

/-- Contents carried to the type of the buffer they are already typed at are unchanged. -/
theorem toBuf_self (r : Ref sig .tc) (h1 : r.ty = r.ty) (h2 : r.space ≠ .host) (h3 : r.isScoped = false)
    (v : r.ty.Contents Val) : (TRef.of r h1 h2 h3).toBuf v = v := rfl

/-- Contents carried back from the type of the buffer they are already typed at are unchanged. -/
theorem ofBuf_self (r : Ref sig .tc) (h1 : r.ty = r.ty) (h2 : r.space ≠ .host) (h3 : r.isScoped = false)
    (v : r.ty.Contents Val) : (TRef.of r h1 h2 h3).ofBuf v = v := rfl

end Cert.Lib.RefCasts
-- ==== Proof.RefFold.lean ====
/-
  What the reference's line of operations leaves in its result buffer, and that it leaves the arguments alone.

  Every operation writes one buffer of its own and reads buffers written earlier (or arguments), so running the line
  from any starting contents V leaves the result buffer at the composition of the operations' functions along the
  data flow — the term `outTerm` of the six argument arrays as V holds them — and never writes an argument.
-/
import proofs.«138437_g67937792688175_cont_sun_m_1187_20_alg».proof.Proof.RefOps
import proofs.«138437_g67937792688175_cont_sun_m_1187_20_alg».proof.Proof.LibRefCasts

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 65536 in
/-- The result buffer after the line: the five stages composed, of the arguments' contents before it. Reading the line
    back gives the composition with each called function's values carried to their buffers' types and back — the
    identity, since each buffer's type is its value's — and what is left is the stages' own text. -/
theorem out_eq (V : Valuation τ sig (Elt F)) :
    after ops V (main_v20 : DevRef τ sig)
      = outTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [Cert.Lib.RefCasts.toBuf_self, Cert.Lib.RefCasts.ofBuf_self]
  unfold outTerm zTerm maskTerm takeTerm idxTerm siluTerm
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

end Cert.ReferenceIdeal.RefValue

end
-- ==== Proof.RefTake.lean ====
/-
  The kept width the reference looks up, on expert words in range.

  For a token with expert word e, 0 ≤ e < 8 read signed: the test e < 0 fails, so the look-up index is e itself (no 8
  is added); both bound tests 0 ≤ e and e ≤ 7 hold at every token, so their conjunction along the column's single entry
  is 1 and the look-up's entry is taken, not the out-of-range filler; the look-up reads the table at the index read
  signed and clamped to 0 … 7, which is e; and the table's entry number e is 192 · (e + 1), the word (e + 1) · 192.
-/
import proofs.«138437_g67937792688175_cont_sun_m_1187_20_alg».proof.Proof.RefOps
import proofs.«138437_g67937792688175_cont_sun_m_1187_20_alg».proof.Proof.Spec
import Idealize.ShloMosaic.Lib.ValueIdx
import Idealize.ShloMosaic.Lib.ReduceAll
import Idealize.ShloMosaic.Lib.Affine

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts
open Idealize.ShloMosaic.ValueIdx

variable {F : FTy → Type} [FloatOps F] [Facts]

/-- A vector of 32768 entries made into a column reads, at row n, the vector's entry n. -/
theorem col_apply {α : Type} (x : S32768.Idx → α) (n : Fin 32768) (q : Fin 1) :
    broadcastInDim S32768x1 ![0] bcast_S32768_S32768x1_0 x (ix2 n q) = x (ix1 n) := by
  unfold broadcastInDim
  congr 1
  funext a
  match a with
  | ⟨0, _⟩ => rfl

/-- A word that is nonnegative and below 8 read signed is one of the numbers 0 … 7. -/
theorem toNat_lt_of_inRange {e : BitVec 32} (h0 : 0 ≤ e.toInt) (h8 : e.toInt < 8) : e.toNat < 8 ∧ e.toInt.toNat = e.toNat := by
  have hlt := e.isLt
  unfold BitVec.toInt at h0 h8 ⊢
  split at h0 <;> rename_i hc <;> simp only [hc, if_true, if_false] at h8 ⊢ <;> omega

/-- The look-up index of a token whose expert word is not negative is the word itself. -/
theorem idxTerm_apply (a1 : IVec S32768 32) (n : Fin 32768) (q : Fin 1) (h0 : 0 ≤ (a1 (ix1 n)).toInt) :
    idxTerm a1 (ix2 n q) = a1 (ix1 n) := by
  unfold idxTerm
  rw [col_apply]
  show Scalar.select (IntOp.cmpi .slt (a1 (ix1 n)) 0#32) _ (a1 (ix1 n)) = a1 (ix1 n)
  have hb : IntOp.cmpi .slt (a1 (ix1 n)) 0#32 = 0#1 :=
    eq_zero_of_ne_one fun hc => by
      have := IntOp.cmpi_slt.1 hc
      have h00 : (0#32).toInt = 0 := by decide
      omega
  rw [hb, select_zero]

/-- A left fold by "and" from 1 over bits that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_one f hf l

/-- Both bound tests hold at every entry of the index column, so their conjunction along the column is 1 at every
    token. -/
theorem inBounds_apply (a1 : IVec S32768 32) (h : Cert.Spec.InRange a1) (j : S32768.Idx) :
    Host.reduce IntOp.andi
      (andi (cmpi .sge (idxTerm a1) (broadcastInDim S32768x1 ![] bcast_S_S32768x1 (constantI S_ 32 0#32)))
        (cmpi .sle (idxTerm a1) (broadcastInDim S32768x1 ![0, 1] bcast_S1x1_S32768x1_0_1
          (broadcastInDim S1x1 ![1] bcast_S1_S1x1_1 (constantI S1 32 7#32)))))
      (constantI S_ 1 1#1) reducesTo_S32768x1_S32768_d1 h_S_ j = 1#1 := by
  rw [Host.reduce_eq_foldl]
  refine foldl_andi_one _ (fun i => ?_) _
  rw [eq_ix2 i]
  obtain ⟨h0, h8⟩ := h (i 0)
  show IntOp.andi (IntOp.cmpi .sge (idxTerm a1 (ix2 (i 0) (i 1))) 0#32) (IntOp.cmpi .sle (idxTerm a1 (ix2 (i 0) (i 1))) 7#32) = 1#1
  rw [idxTerm_apply a1 (i 0) (i 1) h0]
  refine IntOp.andi_eq_one.2 ⟨IntOp.cmpi_sge.2 ?_, IntOp.cmpi_sle.2 ?_⟩
  · have h00 : (0#32).toInt = 0 := by decide
    omega
  · have h7 : (7#32).toInt = 7 := by decide
    omega

/-- The look-up at token n reads the table at the index column's entry, read signed and clamped to 0 … 7. -/
theorem gather_apply {α : Type} (x : S8.Idx → α) (idx : IVec S32768x1 32) (n : Fin 32768) :
    Host.gather gather_S8_S32768x1_S32768_n_0_n_n_0_1_1 x idx (ix1 n)
      = x (ix1 ⟨min (idx (ix2 n 0)).toInt.toNat 7, by omega⟩) := by
  unfold Host.gather
  congr 1
  funext a
  obtain rfl : a = 0 := Subsingleton.elim _ _
  refine Fin.ext ?_
  show gather_S8_S32768x1_S32768_n_0_n_n_0_1_1.start (ix1 n) idx 0 + gather_S8_S32768x1_S32768_n_0_n_n_0_1_1.batchCoord (ix1 n) 0
    + gather_S8_S32768x1_S32768_n_0_n_n_0_1_1.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8_S32768x1_S32768_n_0_n_n_0_1_1.startIndexMap from List.mem_singleton.mpr rfl)]
  have hsi : gather_S8_S32768x1_S32768_n_0_n_n_0_1_1.siIdx (ix1 n)
      ⟨List.idxOf (0 : Fin 1) gather_S8_S32768x1_S32768_n_0_n_n_0_1_1.startIndexMap,
        List.idxOf_lt_length_iff.2 (List.mem_singleton.mpr rfl)⟩ = ix2 n 0 := by
    funext b; refine Fin.ext ?_
    match b with
    | ⟨0, _⟩ => rfl
    | ⟨1, _⟩ => rfl
  rw [hsi]
  rfl

/-- The table's entry number k is 192 · (k + 1). -/
theorem table_apply (k : Fin 8) : lit0 (S8.rowMajor (ix1 k)) = BitVec.ofNat 32 (192 * (k.val + 1)) := by
  have hk : S8.rowMajor (ix1 k) = k := Fin.ext (Shape.rowMajor_val_one _)
  rw [hk]
  fin_cases k <;> rfl

/-- On expert words in range the reference's kept width at token n is the word (e(n) + 1) · 192. -/
theorem takeTerm_apply (a1 : IVec S32768 32) (h : Cert.Spec.InRange a1) (n : Fin 32768) :
    takeTerm a1 (ix1 n) = Cert.Spec.width (a1 (ix1 n)) := by
  obtain ⟨h0, h8⟩ := h n
  unfold takeTerm
  rw [select_apply, inBounds_apply a1 h, select_one, gather_apply]
  obtain ⟨hlt, hnat⟩ := toNat_lt_of_inRange h0 h8
  have hmin : min (a1 (ix1 n)).toInt.toNat 7 = (a1 (ix1 n)).toNat := by rw [hnat]; omega
  have hfin : (⟨min (idxTerm a1 (ix2 n 0)).toInt.toNat 7, by omega⟩ : Fin 8) = ⟨(a1 (ix1 n)).toNat, hlt⟩ :=
    Fin.ext (by
      show min (idxTerm a1 (ix2 n 0)).toInt.toNat 7 = (a1 (ix1 n)).toNat
      rw [idxTerm_apply a1 n 0 h0]; exact hmin)
  rw [hfin, table_apply]
  generalize a1 (ix1 n) = e at hlt
  obtain ⟨k, hk, rfl⟩ : ∃ k, k < 8 ∧ e = BitVec.ofNat 32 k := ⟨e.toNat, hlt, BitVec.eq_of_toNat_eq (by rw [BitVec.toNat_ofNat]; omega)⟩
  interval_cases k <;> rfl

end Cert.ReferenceIdeal.RefValue

end
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«138437_g67937792688175_cont_sun_m_1187_20_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.RefIndex.lean ====
/-
  The reference's value, stage by stage, read at one entry on the extended reals, and its agreement with the function
  both programs are meant to compute.

  At token n and output feature j the reference's result is  Σ_k ((s(z)·z)·m)(n, k) · W2(j, k) + b2(j),  where
  z(n, k) = Σ_i x(n, i) · W1(k, i) + b1(k) is the hidden pre-activation, s(z) = z · σ(z) with σ(z) = 1 / (1 + e^(−z)),
  and m(n, k) is the number 1 when hidden unit k, as a word, lies (signed) below the token's kept width and 0 otherwise.
  Given that the kept width of token n is the word (e(n) + 1) · 192, the masked product ((z·σ(z))·z)·m is the
  self-gated activation z·z·σ(z) on a kept unit and 0 on the others: the two descriptions are one function. Only
  commutativity and the laws of 0 and 1 of the product are used, so nothing is asked to be finite.
-/
import proofs.«138437_g67937792688175_cont_sun_m_1187_20_alg».proof.Proof.RefOps
import proofs.«138437_g67937792688175_cont_sun_m_1187_20_alg».proof.Proof.Spec
import proofs.«138437_g67937792688175_cont_sun_m_1187_20_alg».proof.Proof.LibMatProd
import proofs.«138437_g67937792688175_cont_sun_m_1187_20_alg».proof.Proof.LibMaskedRows
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

open scoped BigOperators

noncomputable section

namespace Cert.ReferenceIdeal.RefValue

open Cert.ReferenceIdeal Idealize.ShloMosaic Idealize.ShloMosaic.TcCoe Idealize.SL.Sem Idealize.ShloMosaic.StableHlo Idealize.ShloMosaic.ValueIdx Cert.Lib.MaskedRows
open Cert.ReferenceIdeal.Facts₀ Cert.ReferenceIdeal.Facts

variable [Facts]

/-! ## The stages at an index -/

/-- The pre-activation stage at (n, k) is the affine form Σ_i x(n, i) · W1(k, i) + b1(k): the product with the
    transposed weights is the sum over the shared coordinate, and the bias row reads its entry k. -/
theorem zTerm_apply (a0 : FVec Ideal S32768x768 .f32) (a2 : FVec Ideal S1536x768 .f32) (a3 : FVec Ideal S1536 .f32)
    (n : Fin 32768) (k : Fin 1536) : zTerm (F := Ideal) a0 a2 a3 (ix2 n k) = Cert.Spec.pre a0 a2 a3 n k := by
  unfold zTerm
  refine (addf_apply _ _ _).trans ?_
  refine congrArg₂ (· + ·) ?_ ?_
  · show FloatOps.dotGeneral _ none .single a0 _ (ix2 n k) = _
    rw [Cert.Lib.MatProd.dotGeneral_eq_matProd _ rfl rfl rfl rfl rfl rfl, Cert.Lib.MatProd.matProd_apply]
    refine Finset.sum_congr rfl fun i _ => ?_
    rw [transposed_apply]
  · exact bias_row_apply a3 _ _ n k

/-- The stage z ↦ z · (1 / (1 + e^(−z))) at an entry is z · σ(z): the constant it divides and adds is the number 1. -/
theorem siluTerm_apply (z : FVec Ideal S32768x1536 .f32) (i : S32768x1536.Idx) :
    siluTerm (F := Ideal) z i = z i * Ideal.logistic (z i) := by
  unfold siluTerm
  refine (mulf_apply _ _ _).trans ?_
  refine congrArg (z i * ·) ?_
  show Ideal.div (broadcastInDim S32768x1536 ![] bcast_S_S32768x1536 (constant (F := Ideal) S_ .f32 0x3F800000#32) i)
      (broadcastInDim S32768x1536 ![] bcast_S_S32768x1536 (constant (F := Ideal) S_ .f32 0x3F800000#32) i + Ideal.exp (-(z i))) = _
  rw [broadcastInDim_scalar_apply, constant_apply, Ideal.ofBits_one_f32]
  rfl

/-- The mask stage at (n, k), for a token whose kept width is (e(n) + 1) · 192: the bit "k is (signed) below the
    width", as a number. The row of unit numbers reads the word k; the column of kept widths reads token n's. -/
theorem maskTerm_apply (a1 : IVec S32768 32) (n : Fin 32768) (k : Fin 1536)
    (hT : takeTerm a1 (ix1 n) = Cert.Spec.width (a1 (ix1 n))) :
    maskTerm (F := Ideal) a1 (ix2 n k) = FloatOps.uitofp (F := Ideal) .f32 (Cert.Spec.keeps (a1 (ix1 n)) k) := by
  unfold maskTerm
  show FloatOps.uitofp (F := Ideal) .f32 (IntOp.cmpi .slt _ _) = _
  rw [bias_row_apply, column_bcast_apply, hT]
  rfl

/-! ## The result -/

/-- The reference's result is the specified function, for expert words whose kept width is (e + 1) · 192: entry by
    entry, the second product is the sum over hidden units of the masked, gated activation times W2(j, k), and the
    bias row reads b2(j). -/
theorem outTerm_eq (a0 : FVec Ideal S32768x768 .f32) (a1 : IVec S32768 32) (a2 : FVec Ideal S1536x768 .f32) (a3 : FVec Ideal S1536 .f32)
    (a4 : FVec Ideal S768x1536 .f32) (a5 : FVec Ideal S768 .f32)
    (hT : ∀ n : Fin 32768, takeTerm a1 (ix1 n) = Cert.Spec.width (a1 (ix1 n))) :
    outTerm (F := Ideal) a0 a1 a2 a3 a4 a5 = Cert.Spec.out a0 a1 a2 a3 a4 a5 := by
  funext i
  obtain ⟨n, j, rfl⟩ : ∃ (n : Fin 32768) (j : Fin 768), i = ix2 n j := ⟨i 0, i 1, eq_ix2 i⟩
  rw [Cert.Spec.out_apply]
  unfold outTerm
  refine (addf_apply _ _ _).trans ?_
  refine congrArg₂ (· + ·) ?_ ?_
  · show FloatOps.dotGeneral _ none .single _ _ (ix2 n j) = _
    rw [Cert.Lib.MatProd.dotGeneral_eq_matProd _ rfl rfl rfl rfl rfl rfl, Cert.Lib.MatProd.matProd_apply]
    refine Finset.sum_congr rfl fun k _ => ?_
    rw [transposed_apply, mulf_apply, mulf_apply, siluTerm_apply, zTerm_apply, maskTerm_apply a1 n k (hT n), gated_eq]
    rfl
  · exact bias_row_apply a5 _ _ n j

end Cert.ReferenceIdeal.RefValue

end
-- ==== Proof.RefValue.lean ====
/-
  The reference's run, read: on expert words in range it ends with its result array at the specified function of the
  argument arrays, and it never changes an argument array.

  The run leaves every buffer at the line of operations' value there; at the result buffer that value is the five stages
  composed; the stages are the specified function once each token's kept width is (e + 1) · 192; and that is what the
  table look-up returns on words 0 … 7.
-/
import proofs.«138437_g67937792688175_cont_sun_m_1187_20_alg».proof.Proof.RefRun
import proofs.«138437_g67937792688175_cont_sun_m_1187_20_alg».proof.Proof.RefFold
import proofs.«138437_g67937792688175_cont_sun_m_1187_20_alg».proof.Proof.RefTake
import proofs.«138437_g67937792688175_cont_sun_m_1187_20_alg».proof.Proof.RefIndex

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- Every weakly fair execution of the reference terminates with the argument arrays as they were. -/
theorem run_args {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_arg0).trans (arg0_eq _), (h c main_arg1).trans (arg1_eq _),
      (h c main_arg2).trans (arg2_eq _), (h c main_arg3).trans (arg3_eq _), (h c main_arg4).trans (arg4_eq _),
      (h c main_arg5).trans (arg5_eq _)⟩)
    (run_main m ρ)

/-- On expert words in range, every weakly fair execution of the reference terminates with its result array at the
    specified function of the argument arrays, the argument arrays as they were. -/
theorem run (m : (ℓ : Loc nD τ sig) → Buf (Elt Ideal) ℓ) (ρ : Dev nD → PrngReg)
    (hr : ∀ c : Dev nD, Cert.Spec.InRange (m ((c.tc : Thread nD τ).loc main_arg1))) :
    θ_run defs (onTc (τ := τ) (main (F := Ideal))) ⟨m, fun _ => 0, ρ⟩ fun r => ∀ c : Dev nD,
      r.2.mem ((c.tc : Thread nD τ).loc main_v20)
          = Cert.Spec.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v20).trans ((out_eq _).trans (outTerm_eq _ _ _ _ _ _ (takeTerm_apply _ (hr c)))),
        (h c main_arg0).trans (arg0_eq _), (h c main_arg1).trans (arg1_eq _),
        (h c main_arg2).trans (arg2_eq _), (h c main_arg3).trans (arg3_eq _), (h c main_arg4).trans (arg4_eq _),
        (h c main_arg5).trans (arg5_eq _)⟩)
    (run_main m ρ)

end Cert.ReferenceIdeal.RefValue

end
-- ==== Proof.PreRange.lean ====
/-
  The expert words are in range under the precondition.

  The precondition is a conjunction of six tests, the last of which says: for every token n, 0 ≤ e(n) and e(n) < 8, both
  read signed on 32-bit words. It is computed as the conjunction ("and" over all 32768 tokens, started at 1) of the
  per-token bit  (e(n) ≥ 0) and (e(n) < 8).  A conjunction of bits is 1 only if each of them is, so the precondition
  being 1 gives both comparisons at every token, and a signed comparison bit that is 1 is the corresponding inequality
  between the signed values of the words. The first five conjuncts (finiteness of the real inputs) are not looked at.
-/
import proofs.«138437_g67937792688175_cont_sun_m_1187_20_alg».proof.Pre_finite_inputs
import proofs.«138437_g67937792688175_cont_sun_m_1187_20_alg».proof.Proof.Spec
import Idealize.ShloMosaic.Lib.ReduceAll
import Idealize.ShloMosaic.Lib.Affine
import Idealize.ShloMosaic.Lib.ValueIdx

noncomputable section

namespace Cert.PreRange

open Idealize.ShloMosaic Idealize.ShloMosaic.ValueIdx

/-- The rank-0 shape has a single index. -/
instance : Subsingleton Cert.Pre_finite_inputs.S_.Idx := ⟨fun a b => funext fun d => d.elim0⟩

theorem inRange_of_fn [Cert.Pre_finite_inputs.Facts] {F : FTy → Type} [FloatOps F]
    (a0 : FVec F Cert.Pre_finite_inputs.S32768x768 .f32) (a1 : IVec Cert.Pre_finite_inputs.S32768 32)
    (a2 : FVec F Cert.Pre_finite_inputs.S1536x768 .f32) (a3 : FVec F Cert.Pre_finite_inputs.S1536 .f32)
    (a4 : FVec F Cert.Pre_finite_inputs.S768x1536 .f32) (a5 : FVec F Cert.Pre_finite_inputs.S768 .f32)
    (h : Cert.Pre_finite_inputs.fn (F := F) a0 a1 a2 a3 a4 a5 = fun _ => 1#1) : Cert.Spec.InRange a1 := by
  intro n
  have e := congrFun h ValueIdx.ix0
  dsimp only [Cert.Pre_finite_inputs.fn, Cert.Pre_finite_inputs.fn_part1] at e
  -- the outermost conjunction: keep its second operand, the test on the expert words
  have e2 := (IntOp.andi_eq_one.1 e).2
  -- a conjunction over all tokens that is 1 is 1 at each token
  have e3 := Host.reduce_andi_all _ _ _ _ _ e2 (ix1 n)
  -- at token n: both comparison bits are 1
  obtain ⟨h0, h8⟩ := IntOp.andi_eq_one.1 e3
  exact ⟨IntOp.cmpi_sge.1 h0, IntOp.cmpi_slt.1 h8⟩

end Cert.PreRange

end
-- ==== Proof.lean ====
/-
  A fused two-layer network with a per-token nested width, against its array reference: both compute, on the extended
  reals, the same function of the arguments.

  For token n with features x(n, ·) and expert word e(n): the hidden pre-activation is z(n, k) = Σ_i x(n, i)·W1(k, i) + b1(k);
  the hidden activation is g(z) = z·z·σ(z), σ(z) = 1/(1 + e^(−z)), on the first (e(n) + 1)·192 of the 1536 hidden units
  and 0 on the rest; the output is Σ_k h(n, k)·W2(j, k) + b2(j). (Proof/Spec.lean states it.)

  The kernel computes this block by block: 32 blocks of 1024 tokens, each block the two products, the gate and the mask of
  its own tokens, the mask being the signed comparison of the unit's number with (e + 1)·192 computed on words
  (Proof/KernelBody.lean reads a block's value at an entry; Proof/KernelValue.lean reads the blocks off the arrays and
  covers the result with them). The reference computes it on whole arrays, the kept width by a look-up of the table
  (192, 384, …, 1536) at the expert word and the mask as a 0/1 factor (Proof/RefOps.lean … Proof/RefValue.lean: its
  run, the value as five composed stages, and the stages at an entry).

  The two agree because (z·σ(z))·z = z·z·σ(z) and multiplying by the 0/1 mask is choosing between the value and 0 —
  laws of a commutative product with 0 and 1, which hold at the infinities too, so no finiteness is used —, and because
  on an expert word e among 0 … 7 the table's entry is (e + 1)·192. Outside 0 … 7 the reference's look-up wraps negative
  words and fills the rest, and the two programs differ; the claim is made for expert words in range, which is what the
  precondition's last conjunct says (Proof/PreRange.lean reads it off the precondition).

  The first three conjuncts say each program runs and leaves its arguments alone: the kernel's two programs by their
  generated frame certificates, the reference by its run. The fourth is empty: the idealized kernel is the kernel's own
  text read on the extended reals.
-/
import proofs.«138437_g67937792688175_cont_sun_m_1187_20_alg».proof.Defs
import proofs.«138437_g67937792688175_cont_sun_m_1187_20_alg».proof.Proof.Gen.Kernel
import proofs.«138437_g67937792688175_cont_sun_m_1187_20_alg».proof.Proof.Gen.Kernel.Frame
import proofs.«138437_g67937792688175_cont_sun_m_1187_20_alg».proof.Proof.Gen.KernelIdeal
import proofs.«138437_g67937792688175_cont_sun_m_1187_20_alg».proof.Proof.Gen.KernelIdeal.Frame
import proofs.«138437_g67937792688175_cont_sun_m_1187_20_alg».proof.Proof.Gen.ReferenceIdeal
import proofs.«138437_g67937792688175_cont_sun_m_1187_20_alg».proof.Proof.Gen.Pre_finite_inputs
import proofs.«138437_g67937792688175_cont_sun_m_1187_20_alg».proof.Proof.KernelValue
import proofs.«138437_g67937792688175_cont_sun_m_1187_20_alg».proof.Proof.RefValue
import proofs.«138437_g67937792688175_cont_sun_m_1187_20_alg».proof.Proof.PreRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ => Cert.ReferenceIdeal.RefValue.run_args m ρ

theorem preserves : Cert.preserves_Kernel_KernelIdeal := trivial

/-- Under the precondition the expert words are in range; so the kernel's result array is the specified function of
    its arguments, the reference's is the specified function of its own, and the arguments agree. -/
theorem algebraic : Cert.algebraic_KernelIdeal_ReferenceIdeal := by
  intro m ρ m' ρ' hpre hagree
  have hr : ∀ c : Dev Cert.KernelIdeal.nD, Cert.Spec.InRange
      (m ((c.tc : Thread Cert.KernelIdeal.nD Cert.KernelIdeal.τ).loc Cert.KernelIdeal.main_arg1)) :=
    fun c => Cert.PreRange.inRange_of_fn _ _ _ _ _ _ (hpre c)
  have hr' : ∀ c : Dev Cert.ReferenceIdeal.nD, Cert.Spec.InRange
      (m' ((c.tc : Thread Cert.ReferenceIdeal.nD Cert.ReferenceIdeal.τ).loc Cert.ReferenceIdeal.main_arg1)) :=
    fun c => by rw [(hagree c).2.1]; exact hr c
  refine ⟨fun c => Cert.KernelIdeal.BlockValue.G m c, Cert.KernelIdeal.BlockValue.run m ρ, ?_⟩
  refine (θ_run Cert.ReferenceIdeal.defs _ _).mono (fun _ h c => ⟨(h c).1.trans ?_, (h c).2⟩)
    (Cert.ReferenceIdeal.RefValue.run m' ρ' hr')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
